-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S16384x128 .f32) (main_arg1 : FVec F S16384x128 .f32) (main_arg2 : FVec F S16384x16384 .f32) (main_arg3 : FVec F S128x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x16384 .f32 := Host.absf main_arg2
  let main_cst_2 : FVec F S_ .f32 := constant S_ .f32 0x7F800000#32
  let main_v10 : FVec F S16384x16384 .f32 := broadcastInDim S16384x16384 ![] bcast_S_S16384x16384 main_cst_2
  let main_v11 : IVec S16384x16384 1 := cmpf .olt main_v9 main_v10
  let main_c_3 : IVec S_ 1 := constantI S_ 1 1#1
  let main_v12 : IVec S_ 1 := (fun x v => Host.reduce IntOp.andi x v reducesTo_S16384x16384_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S2048x2048 : Shape := ⟨2, ![2048, 2048]⟩
abbrev S2048x128 : Shape := ⟨2, ![2048, 128]⟩

abbrev nBuf : Space → Nat
  | .hbm => 5
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x16384, .f32⟩
  | .hbm, ⟨3, _⟩ => ⟨S128x128, .f32⟩
  | .hbm, ⟨4, _⟩ => ⟨S16384x128, .f32⟩
  | .local _ .vmem, ⟨0, _⟩ => ⟨S2048x2048, .f32⟩
  | .local _ .vmem, ⟨1, _⟩ => ⟨S2048x2048, .f32⟩
  | .local _ .vmem, ⟨2, _⟩ => ⟨S16384x128, .f32⟩
  | .local _ .vmem, ⟨3, _⟩ => ⟨S2048x128, .f32⟩
  | .local _ .vmem, ⟨4, _⟩ => ⟨S2048x128, .f32⟩
  | .local _ .vmem, ⟨5, _⟩ => ⟨S128x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  inb_S128x128_S128x128_0_0 : ∀ a, (![0, 0] : Fin 2 → Nat) a + S128x128.size a ≤ S128x128.size a
  h_S128x128 : 0 < S128x128.numel
  dot_S2048x2048_S2048x128_S2048x128_1_0_0_1_n_n_wf : DotDims.WF S2048x2048 S2048x128 S2048x128 [1] [0] [0] [1] [] []
  dot_S2048x128_S128x128_S2048x128_1_0_0_1_n_n_wf : DotDims.WF S2048x128 S128x128 S2048x128 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .f32 = 32 ∨ (Rect.block (s := S16384x16384) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S16384x128.size a
  hwx0_4 : ∀ i : grid0.Coords, EltTy.bits .f32 = 32 ∨ (Rect.block (s := S16384x128) S2048x128.size (cc0_transform_4 i) (hinb0_4 i)).WholeWords (EltTy.packing .f32)

variable [Facts₀]

def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg2) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x16384, .f32⟩
  | .hbm, ⟨3, _⟩ => ⟨S128x128, .f32⟩
  | .hbm, ⟨4, _⟩ => ⟨S16384x128, .f32⟩
  | .hbm, ⟨5, _⟩ => ⟨S_, .f32⟩
  | .hbm, ⟨6, _⟩ => ⟨S16384x128, .f32⟩
  | .hbm, ⟨7, _⟩ => ⟨S16384x128, .f32⟩
  | .hbm, ⟨8, _⟩ => ⟨S_, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S_, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S_, .f32⟩
  | .hbm, ⟨17, _⟩ => ⟨S16384x128, .f32⟩
  | .hbm, ⟨18, _⟩ => ⟨S16384x128, .f32⟩
  | .hbm, ⟨19, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S_S16384x128 : S_.BroadcastsInDim S16384x128 (![] : Fin 0 → Fin S16384x128.rank)
  dot_S16384x16384_S16384x128_S16384x128_1_0_0_1_n_n_wf : DotDims.WF S16384x16384 S16384x128 S16384x128 [1] [0] [0] [1] [] []
  dot_S16384x128_S128x128_S16384x128_1_0_0_1_n_n_wf : DotDims.WF S16384x128 S128x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.LibTileSum.lean ====
/-
  A sum over a contraction axis of extent K·T taken tile by tile: the sum over the K tiles of the sums over the T
  positions inside a tile is the sum over the whole axis, position T·s + j of the axis being position j of tile s.
  Only commutativity and associativity of the addition are used, so this holds in any commutative additive monoid —
  the extended reals with their infinities included. It is the law between a product accumulated over K contraction
  tiles of width T and the one product over the whole contraction axis.
-/
import Idealize.ShloMosaic.Lib.ValueIdx

open scoped BigOperators

namespace Cert.TileSum

/-- The axis `Fin (K * T)` is K tiles of T positions each: for any `f` on the axis' positions (given on the
    naturals), summing `f (T * s + j)` over the tiles `s < K` and the positions `j < T` inside a tile is summing
    `f` over the axis. -/
theorem sum_tiles {β : Type*} [AddCommMonoid β] (K T : ℕ) (f : ℕ → β) :
    ∑ s ∈ Finset.range K, ∑ j : Fin T, f (T * s + j.val) = ∑ r : Fin (K * T), f r.val := by
  rw [Finset.sum_range, ← Equiv.sum_comp (finProdFinEquiv (m := K) (n := T)), Fintype.sum_prod_type]
  refine Finset.sum_congr rfl fun s _ => Finset.sum_congr rfl fun j _ => ?_
  exact congrArg f (by rw [finProdFinEquiv_apply_val]; exact Nat.add_comm _ _)

end Cert.TileSum
-- ==== Proof.Spec.lean ====
/-
  The specification: one graph-convolution layer with an initial-residual and an identity-mapping term, as ONE
  function of the four argument arrays over the extended reals.

  With adj : [16384, 16384], x and x₀ : [16384, 128], w : [128, 128] and the four float constants a, α, b, β
  (kept as their binary words, the same words in both programs, never evaluated):

    agg (r, q)  = Σ_k adj (r, k) · x (k, q)                       the aggregation over all 16384 neighbours
    comb (r, q) = a · agg (r, q) + α · x₀ (r, q)                   the skip connection
    out (r, q)  = b · comb (r, q) + β · Σ_k comb (r, k) · w (k, q)   the weight combine

  One program contracts the 16384 neighbours in one product; the other takes them in 8 tiles of 2048, adding each
  tile's product into an accumulator that starts at zero. The law between the two (agg_tiles) is a regrouping of one
  finite sum: it uses only that addition is commutative and associative, which holds on the extended reals with the
  infinities included, so no finiteness of the inputs is needed anywhere.
-/
import Idealize.ShloMosaic.Lib.ValueIdx
import proofs.«115985_j19439021981955_2_alg».proof.Proof.LibTileSum

noncomputable section

open scoped BigOperators

namespace Cert.Spec

open Idealize.ShloMosaic Idealize.ShloMosaic.ValueIdx

/-- The shapes of the arrays: node features, adjacency, weight. -/
abbrev SNC : Shape := ⟨2, ![16384, 128]⟩
abbrev SNN : Shape := ⟨2, ![16384, 16384]⟩
abbrev SCC : Shape := ⟨2, ![128, 128]⟩

/-- The four float constants as the extended reals their binary words denote: a (the word of 1 - 0.1), α (of 0.1),
    b (of 1 - log 1.125) and β (of log 1.125). -/
abbrev ca : EReal := Ideal.ofBits .f32 0x3F666666#32
abbrev cα : EReal := Ideal.ofBits .f32 0x3DCCCCCD#32
abbrev cb : EReal := Ideal.ofBits .f32 0x3F61D8F9#32
abbrev cβ : EReal := Ideal.ofBits .f32 0x3DF1383B#32

/-- The aggregation: row r of adj against column q of x. -/
def agg (adj : SNN.Idx → EReal) (x : SNC.Idx → EReal) (r : Fin 16384) (q : Fin 128) : EReal :=
  ∑ k : Fin 16384, adj (ix2 r k) * x (ix2 k q)

/-- The skip connection. -/
def comb (adj : SNN.Idx → EReal) (x x₀ : SNC.Idx → EReal) (r : Fin 16384) (q : Fin 128) : EReal :=
  ca * agg adj x r q + cα * x₀ (ix2 r q)

/-- The layer's output, entry by entry. -/
def out (adj : SNN.Idx → EReal) (x x₀ : SNC.Idx → EReal) (w : SCC.Idx → EReal) : SNC.Idx → EReal :=
  fun i => cb * comb adj x x₀ (i 0) (i 1) + cβ * ∑ k : Fin 128, comb adj x x₀ (i 0) k * w (ix2 k (i 1))

theorem out_apply (adj : SNN.Idx → EReal) (x x₀ : SNC.Idx → EReal) (w : SCC.Idx → EReal) (r : Fin 16384) (q : Fin 128) :
    out adj x x₀ w (ix2 r q) = cb * comb adj x x₀ r q + cβ * ∑ k : Fin 128, comb adj x x₀ r k * w (ix2 k q) := rfl

/-! ## Arrays read at natural coordinates -/

/-- A rank-2 array read at natural coordinates: its entry inside the extents, zero outside (the outside is never
    used; it makes the read total, so that a sum over tiles can be stated over the naturals). -/
def at2 {n0 n1 : Nat} (a : (⟨2, ![n0, n1]⟩ : Shape).Idx → EReal) (r k : ℕ) : EReal :=
  if h : r < n0 ∧ k < n1 then a (ix2 ⟨r, h.1⟩ ⟨k, h.2⟩) else 0

theorem at2_val {n0 n1 : Nat} (a : (⟨2, ![n0, n1]⟩ : Shape).Idx → EReal) (r : Fin n0) (k : Fin n1) :
    at2 a r.val k.val = a (ix2 r k) := by
  unfold at2; rw [dif_pos ⟨r.isLt, k.isLt⟩]

theorem at2_of_lt {n0 n1 : Nat} (a : (⟨2, ![n0, n1]⟩ : Shape).Idx → EReal) (r k : ℕ) (hr : r < n0) (hk : k < n1) :
    at2 a r k = a (ix2 ⟨r, hr⟩ ⟨k, hk⟩) := by
  unfold at2; rw [dif_pos ⟨hr, hk⟩]

/-! ## The aggregation, tile by tile -/

/-- The 16384 neighbours taken in 8 tiles of 2048: neighbour 2048·s + j is position j of tile s, and the sum of the
    tiles' partial products is the aggregation. -/
theorem agg_tiles (adj : SNN.Idx → EReal) (x : SNC.Idx → EReal) (r : Fin 16384) (q : Fin 128) :
    ∑ s ∈ Finset.range 8, ∑ j : Fin 2048, at2 adj r.val (2048 * s + j.val) * at2 x (2048 * s + j.val) q.val
      = agg adj x r q := by
  rw [Cert.TileSum.sum_tiles 8 2048 (fun k => at2 adj r.val k * at2 x k q.val)]
  show ∑ k : Fin 16384, at2 adj r.val k.val * at2 x k.val q.val = _
  unfold agg
  exact Finset.sum_congr rfl fun k _ => by rw [at2_val, at2_val]

end Cert.Spec

end
-- ==== Proof.RefIsSpec.lean ====
/-
  The reference program, read entry by entry, is the specification.

  The reference computes one graph-convolution layer in eleven array operations: the product of the adjacency with
  the node features (a sum over all 16384 neighbours), that product scaled by the constant a, the initial features
  scaled by α, their sum (the skip connection), the skip connection scaled by b, the product of the skip connection
  with the weight (a sum over the 128 channels) scaled by β, and the sum of these two.

  Each operation, read at an index (r, q), is the matching clause of the specification: a contraction is the sum over
  k of its left operand at (r, k) times its right operand at (k, q), a broadcast constant is that constant at every
  index, and a multiply or an add acts entry by entry. Chaining these readings from the result back to the arguments
  gives the specification's formula for out (r, q), with the same constants in the same places, so the equality is one
  of expressions: no law of arithmetic on the extended reals is used.
-/
import proofs.«115985_j19439021981955_2_alg».proof.Proof.Gen.ReferenceIdeal.Read
import proofs.«115985_j19439021981955_2_alg».proof.Proof.Spec

noncomputable section

open scoped BigOperators

namespace Cert.RefValue

open Idealize.ShloMosaic Idealize.ShloMosaic.ValueIdx Cert.ReferenceIdeal Cert.ReferenceIdeal.Read

/-! ## The operand indices of the two contractions, in coordinates -/

/-- First contraction, left operand: row r of the adjacency, neighbour k. -/
theorem lidx_v0 (r : Fin 16384) (q : Fin 128) (k : Fin 16384) : lidx_main_v0 (ix2 r q) k = ix2 r k :=
  funext fun a => Fin.ext (by match a with | ⟨0, _⟩ => rfl | ⟨1, _⟩ => rfl)

/-- First contraction, right operand: neighbour k, column q of the features. -/
theorem ridx_v0 (r : Fin 16384) (q : Fin 128) (k : Fin 16384) : ridx_main_v0 (ix2 r q) k = ix2 k q :=
  funext fun a => Fin.ext (by match a with | ⟨0, _⟩ => rfl | ⟨1, _⟩ => rfl)

/-- Second contraction, left operand: row r of the skip connection, channel k. -/
theorem lidx_v8 (r : Fin 16384) (q : Fin 128) (k : Fin 128) : lidx_main_v8 (ix2 r q) k = ix2 r k :=
  funext fun a => Fin.ext (by match a with | ⟨0, _⟩ => rfl | ⟨1, _⟩ => rfl)

/-- Second contraction, right operand: channel k, column q of the weight. -/
theorem ridx_v8 (r : Fin 16384) (q : Fin 128) (k : Fin 128) : ridx_main_v8 (ix2 r q) k = ix2 k q :=
  funext fun a => Fin.ext (by match a with | ⟨0, _⟩ => rfl | ⟨1, _⟩ => rfl)

/-! ## The skip connection -/

/-- The reference's fifth intermediate, a · (adj · x) + α · x₀, is the specification's skip connection. -/
theorem v5_is_comb (x0 x1 : (⟨S16384x128, .f32⟩ : BufTy).Contents (Elt Ideal)) (x2 : (⟨S16384x16384, .f32⟩ : BufTy).Contents (Elt Ideal))
    (r : Fin 16384) (q : Fin 128) :
    val_main_v5 (F := Ideal) x0 x1 x2 (ix2 r q) = Cert.Spec.comb x2 x0 x1 r q := by
  rw [val_main_v5_apply, val_main_v2_apply, val_main_v4_apply, val_main_v1_apply, val_main_v3_apply,
    val_main_cst_apply, val_main_cst_0_apply, val_main_v0_apply]
  unfold Cert.Spec.comb Cert.Spec.agg
  simp only [lidx_v0, ridx_v0, Ideal.mulf_def, Ideal.addf_def, Ideal.ofBits_def]

/-! ## The whole layer -/

/-- The reference's result is the specification's output: adj is the third argument, x the first, x₀ the second and
    the weight the fourth. -/
theorem ref_is_out (x0 x1 : (⟨S16384x128, .f32⟩ : BufTy).Contents (Elt Ideal)) (x2 : (⟨S16384x16384, .f32⟩ : BufTy).Contents (Elt Ideal)) (x3 : (⟨S128x128, .f32⟩ : BufTy).Contents (Elt Ideal)) :
    Cert.ReferenceIdeal.Read.val_main_v11 (F := Ideal) x0 x1 x2 x3 = Cert.Spec.out x2 x0 x1 x3 := by
  funext i
  obtain ⟨r, q, rfl⟩ : ∃ (r : Fin 16384) (q : Fin 128), i = ix2 r q := ⟨i 0, i 1, eq_ix2 i⟩
  rw [val_main_v11_apply, val_main_v7_apply, val_main_v10_apply, val_main_v6_apply, val_main_v9_apply,
    val_main_cst_1_apply, val_main_cst_2_apply, val_main_v8_apply, v5_is_comb, Cert.Spec.out_apply]
  have hsum : ∑ k : Fin 128, val_main_v5 (F := Ideal) x0 x1 x2 (lidx_main_v8 (ix2 r q) k) * x3 (ridx_main_v8 (ix2 r q) k)
      = ∑ k : Fin 128, Cert.Spec.comb x2 x0 x1 r k * x3 (ix2 k q) :=
    Finset.sum_congr rfl fun k _ => by rw [lidx_v8, ridx_v8, v5_is_comb]
  rw [hsum]
  simp only [Ideal.mulf_def, Ideal.addf_def, Ideal.ofBits_def]

end Cert.RefValue

end
-- ==== Proof.Pieces.lean ====
/-
  What each control case of the body leaves behind, as the body's arithmetic applied to what it loaded.

  The body runs in one of three cases. At the first step of a row tile's contraction (case A) it zeroes the
  accumulator, then adds this step's partial product onto it; at a middle step (case B) it adds the partial product
  onto what the step before left; at the last step (case C) it does the same and then writes the epilogue of the
  accumulator, the x₀ block and the weight into the output block. The partial product contracts the adjacency tile
  with the 2048 rows of the resident x that start at row 2048·k, k the step's position along the contraction.
  Stated for any float instance.
-/
import proofs.«115985_j19439021981955_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelValue

open Cert.KernelIdeal Cert.KernelIdeal.Gen

variable {F : FTy → Type} [FloatOps F]

theorem hz : (![0, 0] : Fin 2 → Nat) = fun _ => 0 := funext fun a => by fin_cases a <;> rfl

/-- The rows of the resident x that step k of the contraction multiplies: the 2048 rows from row 2048·k. -/
def xrows (i : grid0.Coords) (x1 : Vec F S16384x128 .f32) : Vec F S2048x128 .f32 :=
  View.ld x1 (Rect.unit (s := S16384x128) (k0_off1 i) S2048x128.size (k0_off1_inb i))

/-- Case A: the accumulator is zeroed, then this step's partial product is added onto the zeros. -/
theorem soutA_eq (c : Dev nD) (i : grid0.Coords) (arg2 : Memref sig .tc .vmem S2048x2048 .f32) (harg2 : arg2.IsWhole) (arg3 : Memref sig .tc .vmem S16384x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S2048x128 .f32) (harg6 : arg6.IsWhole) (arg7 : Memref sig .tc .vmem S2048x128 .f32) (harg7 : arg7.IsWhole) (hc0 : cond0_0 i) (hc1 : ¬cond0_1 i) (x0 : Vec F S2048x2048 .f32) (x1 : Vec F S16384x128 .f32) (x2 : Vec F S2048x128 .f32) (x3 : Vec F S128x128 .f32) :
    sout0_A_0 c i arg2 harg2 arg3 harg3 arg4 harg4 arg5 harg5 arg6 harg6 arg7 harg7 hc0 hc1 x0 x1 x2 x3 = k0_pay2 (xrows i x1) (k0_pay1 (F := F)) x0 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  try sl_unfold_words
  rw [View.canon_cons_unit_zero hz, View.readCov_unit_zero (S := S2048x128) _ hz]
  simp only [View.readAt_eq_ld, harg2.read_unread, harg3.read_unread, View.ld_unit_zero (S := S2048x2048) hz]
  rfl

/-- Case B: this step's partial product is added onto what the step before left. -/
theorem soutB_eq (c : Dev nD) (i : grid0.Coords) (arg2 : Memref sig .tc .vmem S2048x2048 .f32) (harg2 : arg2.IsWhole) (arg3 : Memref sig .tc .vmem S16384x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S2048x128 .f32) (harg6 : arg6.IsWhole) (arg7 : Memref sig .tc .vmem S2048x128 .f32) (harg7 : arg7.IsWhole) (hc0 : ¬cond0_0 i) (hc1 : ¬cond0_1 i) (x0 : Vec F S2048x2048 .f32) (x1 : Vec F S16384x128 .f32) (x2 : Vec F S2048x128 .f32) (x3 : Vec F S128x128 .f32) (xs0 : Vec F S2048x128 .f32) :
    sout0_B_0 c i arg2 harg2 arg3 harg3 arg4 harg4 arg5 harg5 arg6 harg6 arg7 harg7 hc0 hc1 x0 x1 x2 x3 xs0 = k0_pay2 (xrows i x1) xs0 x0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  try sl_unfold_words
  rw [View.canon_unit_zero hz]
  simp only [View.readAt_eq_ld, harg2.read_unread, harg3.read_unread, harg7.read_unread, View.ld_unit_zero (S := S2048x2048) hz, View.ld_unit_zero (S := S2048x128) hz]
  rfl

/-- Case C, the accumulator: as in case B. -/
theorem soutC_eq (c : Dev nD) (i : grid0.Coords) (arg2 : Memref sig .tc .vmem S2048x2048 .f32) (harg2 : arg2.IsWhole) (arg3 : Memref sig .tc .vmem S16384x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S2048x128 .f32) (harg6 : arg6.IsWhole) (arg7 : Memref sig .tc .vmem S2048x128 .f32) (harg7 : arg7.IsWhole) (hc0 : ¬cond0_0 i) (hc1 : cond0_1 i) (x0 : Vec F S2048x2048 .f32) (x1 : Vec F S16384x128 .f32) (x2 : Vec F S2048x128 .f32) (x3 : Vec F S128x128 .f32) (xs0 : Vec F S2048x128 .f32) :
    sout0_C_0 c i arg2 harg2 arg3 harg3 arg4 harg4 arg5 harg5 arg6 harg6 arg7 harg7 hc0 hc1 x0 x1 x2 x3 xs0 = k0_pay2 (xrows i x1) xs0 x0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  try sl_unfold_words
  rw [View.canon_unit_zero hz]
  simp only [View.readAt_eq_ld, harg2.read_unread, harg3.read_unread, harg7.read_unread, View.ld_unit_zero (S := S2048x2048) hz, View.ld_unit_zero (S := S2048x128) hz]
  rfl

/-- Case C, the output block: the epilogue of the finished accumulator, the x₀ block and the weight. -/
theorem outC_eq (c : Dev nD) (i : grid0.Coords) (arg2 : Memref sig .tc .vmem S2048x2048 .f32) (harg2 : arg2.IsWhole) (arg3 : Memref sig .tc .vmem S16384x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S2048x128 .f32) (harg6 : arg6.IsWhole) (arg7 : Memref sig .tc .vmem S2048x128 .f32) (harg7 : arg7.IsWhole) (hc0 : ¬cond0_0 i) (hc1 : cond0_1 i) (x0 : Vec F S2048x2048 .f32) (x1 : Vec F S16384x128 .f32) (x2 : Vec F S2048x128 .f32) (x3 : Vec F S128x128 .f32) (xs0 : Vec F S2048x128 .f32) :
    out0_C_4 c i arg2 harg2 arg3 harg3 arg4 harg4 arg5 harg5 arg6 harg6 arg7 harg7 hc0 hc1 x0 x1 x2 x3 xs0 = k0_pay3 (k0_pay2 (xrows i x1) xs0 x0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  try sl_unfold_words
  rw [View.canon_unit_zero hz, View.readCov_unit_zero (S := S2048x128) _ hz]
  simp only [View.readAt_eq_ld, harg2.read_unread, harg3.read_unread, harg4.read_unread, harg5.read_unread, harg7.read_unread, View.ld_unit_zero (S := S2048x2048) hz, View.ld_unit_zero (S := S2048x128) hz, View.ld_unit_zero (S := S128x128) hz]
  rfl

end Cert.KernelValue

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.Payloads.lean ====
/-
  The kernel body's arithmetic, read entry by entry over the extended reals.

  The body stores three values, each a function of the arrays it has just loaded:

    the first     is the zero array: every entry is 0 (the accumulator's reset on the first tile);
    the second    at (p, q) is  acc (p, q) + Σ_k adj (p, k) · x (k, q),  k over the 2048 neighbours of one tile
                  (the tile's partial product added into the accumulator);
    the third     at (p, q) is  b · c (p, q) + β · Σ_k c (p, k) · w (k, q),  k over the 128 features, where
                  c (p, k) = a · acc (p, k) + α · x₀ (p, k)  (the skip connection, then the weight combine).

  Each is read through the pointwise operations, which at the extended reals are the field operations themselves, an
  identity reshape, and a matrix product into a zero accumulator, which is the plain sum of products.
-/
import proofs.«115985_j19439021981955_2_alg».proof.Proof.Gen.KernelIdeal.Skeleton
import proofs.«115985_j19439021981955_2_alg».proof.Proof.LibPlainDot
import proofs.«115985_j19439021981955_2_alg».proof.Proof.Spec
import Idealize.ShloMosaic.Lib.Pipeline.Value

set_option synthInstance.maxSize 4096

noncomputable section

open scoped BigOperators

namespace Cert.KernelValue

open Idealize.ShloMosaic Idealize.ShloMosaic.ValueIdx Cert.KernelIdeal Cert.KernelIdeal.Gen Cert.Spec

/-- The first stored value is zero everywhere. -/
theorem pay1_apply (i : S2048x128.Idx) : k0_pay1 (F := Ideal) i = 0 := by
  unfold k0_pay1
  rw [shapeCast_self]
  exact Ideal.ofBits_zero_f32

/-- The second stored value: the accumulator plus one tile's partial product. -/
theorem pay2_apply (v6 v7 : Vec Ideal S2048x128 .f32) (v8 : Vec Ideal S2048x2048 .f32) (p : Fin 2048) (q : Fin 128) :
    k0_pay2 (F := Ideal) v6 v7 v8 (ix2 p q) = v7 (ix2 p q) + ∑ k : Fin 2048, v8 (ix2 p k) * v6 (ix2 k q) := by
  unfold k0_pay2
  rw [shapeCast_self]
  exact congrArg (v7 (ix2 p q) + ·)
    (Cert.PlainDot.matmul_zero_apply dot_S2048x2048_S2048x128_S2048x128_1_0_0_1_n_n rfl rfl rfl rfl rfl rfl none
      (v8 : FVec Ideal S2048x2048 .f32) (v6 : FVec Ideal S2048x128 .f32) p q)

/-- The third stored value: the skip connection, then the weight combine. -/
theorem pay3_apply (v17 v20 : Vec Ideal S2048x128 .f32) (v24 : Vec Ideal S128x128 .f32) (p : Fin 2048) (q : Fin 128) :
    k0_pay3 (F := Ideal) v17 v20 v24 (ix2 p q)
      = cb * (ca * v17 (ix2 p q) + cα * v20 (ix2 p q)) + cβ * ∑ k : Fin 128, (ca * v17 (ix2 p k) + cα * v20 (ix2 p k)) * v24 (ix2 k q) := by
  unfold k0_pay3
  exact congrArg (cb * (ca * v17 (ix2 p q) + cα * v20 (ix2 p q)) + cβ * ·)
    (Cert.PlainDot.matmul_zero_apply dot_S2048x128_S128x128_S2048x128_1_0_0_1_n_n rfl rfl rfl rfl rfl rfl none
      (fun i => ca * v17 i + cα * v20 i : FVec Ideal S2048x128 .f32) (v24 : FVec Ideal S128x128 .f32) p q)

end Cert.KernelValue

end
-- ==== Proof.Blocks.lean ====
/-
  The blocks of the arrays that the body sees at a grid point, read at coordinates.

  The grid has 64 points; point t works on row tile t / 8 at contraction step t % 8. At point t the adjacency block
  is rows 2048·(t/8) + p and columns 2048·(t%8) + j of adj; the x block is all of x, of which the body takes the rows
  2048·(t%8) + j; the x₀ block is rows 2048·(t/8) + p of x₀; the weight block is all of w. With these, one step's
  partial product at (p, q) is the sum over j of adj (2048·(t/8) + p, 2048·(t%8) + j) · x (2048·(t%8) + j, q).
-/
import proofs.«115985_j19439021981955_2_alg».proof.Proof.Pieces
import proofs.«115985_j19439021981955_2_alg».proof.Proof.Payloads
import proofs.«115985_j19439021981955_2_alg».proof.Proof.Gen.KernelIdeal.Value
import proofs.«115985_j19439021981955_2_alg».proof.Proof.Spec

set_option maxRecDepth 16384

noncomputable section

open scoped BigOperators
open Idealize.ShloMosaic Idealize.ShloMosaic.TcCoe Idealize.SL.Sem Idealize.ShloMosaic.ValueIdx

namespace Cert.KernelValue

open Cert.KernelIdeal Cert.KernelIdeal.Gen Cert.KernelIdeal.Value Cert.Spec

variable (m : (ℓ : Loc nD τ sig) → Buf (Elt Ideal) ℓ)

/-- The four argument arrays as the region finds them on core c. -/
abbrev adjA (c : Dev nD) : SNN.Idx → EReal := m ((c : Thread nD τ).loc main_arg2)
abbrev xA (c : Dev nD) : SNC.Idx → EReal := m ((c : Thread nD τ).loc main_arg0)
abbrev x0A (c : Dev nD) : SNC.Idx → EReal := m ((c : Thread nD τ).loc main_arg1)
abbrev wA (c : Dev nD) : SCC.Idx → EReal := m ((c : Thread nD τ).loc main_arg3)

theorem point_lt (t : Fin cfg0.N) : t.val < 64 := lt_of_lt_of_eq t.isLt (show cfg0.N = 64 from N_0)

/-- The printed index maps, decided once over the grid: point t is row tile t / 8 at contraction step t % 8. -/
theorem idx_facts : ∀ t : Fin cfg0.N,
    win0_0.index t (0 : Fin 2) = t.val / 8 ∧ win0_0.index t (1 : Fin 2) = t.val % 8
    ∧ win0_1.index t (0 : Fin 2) = 0 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0
    ∧ (grid0.coords t 1).val = t.val % 8 :=
  (by decide +kernel : ∀ t : Fin grid0.N, _)

/-- The adjacency block at point t. -/
theorem adj_blk (c : Dev nD) (t : Fin cfg0.N) (p j : Fin 2048) :
    (iblk m c 0 t : Vec Ideal S2048x2048 .f32) (ix2 p j)
      = at2 (adjA m c) (2048 * (t.val / 8) + p.val) (2048 * (t.val % 8) + j.val) := by
  have hN := point_lt t
  have hp := p.isLt
  have hj := j.isLt
  obtain ⟨e0, e1, -⟩ := idx_facts t
  rw [at2_of_lt _ _ _ (by omega) (by omega)]
  unfold iblk
  rw [View.read_apply]
  show V m c main_arg2 _ = m (c.tc.loc main_arg2) _
  unfold V
  congr 1
  funext a
  apply Fin.ext
  match a with
  | ⟨0, _⟩ => show win0_0.index t 0 * 2048 + 1 * p.val = 2048 * (t.val / 8) + p.val; rw [e0]; omega
  | ⟨1, _⟩ => show win0_0.index t 1 * 2048 + 1 * j.val = 2048 * (t.val % 8) + j.val; rw [e1]; omega

/-- The rows of x that the step at point t takes: rows 2048·(t%8) + j of x. -/
theorem x_rows (c : Dev nD) (t : Fin cfg0.N) (j : Fin 2048) (q : Fin 128) :
    xrows (grid0.coords t) (iblk m c 1 t : Vec Ideal S16384x128 .f32) (ix2 j q)
      = at2 (xA m c) (2048 * (t.val % 8) + j.val) q.val := by
  have hN := point_lt t
  have hj := j.isLt
  have hq := q.isLt
  obtain ⟨-, -, e2, e3, -, -, -, -, -, -, eg⟩ := idx_facts t
  have ho0 : k0_off1 (grid0.coords t) 0 = 2048 * (t.val % 8) := by rw [k0_off1_eq, ← eg]; rfl
  have ho1 : k0_off1 (grid0.coords t) 1 = 0 := by rw [k0_off1_eq]; rfl
  rw [at2_of_lt _ _ _ (by omega) (by omega)]
  unfold xrows iblk
  show V m c main_arg0 _ = m (c.tc.loc main_arg0) _
  unfold V
  congr 1
  funext a
  apply Fin.ext
  match a with
  | ⟨0, _⟩ => show win0_1.index t 0 * 16384 + 1 * (k0_off1 (grid0.coords t) 0 + 1 * j.val) = 2048 * (t.val % 8) + j.val; rw [e2, ho0]; omega
  | ⟨1, _⟩ => show win0_1.index t 1 * 128 + 1 * (k0_off1 (grid0.coords t) 1 + 1 * q.val) = q.val; rw [e3, ho1]; omega

/-- The x₀ block at point t: rows 2048·(t/8) + p of x₀. -/
theorem x0_blk (c : Dev nD) (t : Fin cfg0.N) (p : Fin 2048) (q : Fin 128) :
    (iblk m c 2 t : Vec Ideal S2048x128 .f32) (ix2 p q) = at2 (x0A m c) (2048 * (t.val / 8) + p.val) q.val := by
  have hN := point_lt t
  have hp := p.isLt
  have hq := q.isLt
  obtain ⟨-, -, -, -, e4, e5, -⟩ := idx_facts t
  rw [at2_of_lt _ _ _ (by omega) (by omega)]
  unfold iblk
  rw [View.read_apply]
  show V m c main_arg1 _ = m (c.tc.loc main_arg1) _
  unfold V
  congr 1
  funext a
  apply Fin.ext
  match a with
  | ⟨0, _⟩ => show win0_2.index t 0 * 2048 + 1 * p.val = 2048 * (t.val / 8) + p.val; rw [e4]; omega
  | ⟨1, _⟩ => show win0_2.index t 1 * 128 + 1 * q.val = q.val; rw [e5]; omega

/-- The weight block at any point: all of w. -/
theorem w_blk (c : Dev nD) (t : Fin cfg0.N) (k q : Fin 128) :
    (iblk m c 3 t : Vec Ideal S128x128 .f32) (ix2 k q) = wA m c (ix2 k q) := by
  obtain ⟨-, -, -, -, -, -, e6, e7, -⟩ := idx_facts t
  unfold iblk
  rw [View.read_apply]
  show V m c main_arg3 _ = m (c.tc.loc main_arg3) _
  unfold V
  congr 1
  funext a
  apply Fin.ext
  match a with
  | ⟨0, _⟩ => show win0_3.index t 0 * 128 + 1 * k.val = k.val; rw [e6]; omega
  | ⟨1, _⟩ => show win0_3.index t 1 * 128 + 1 * q.val = q.val; rw [e7]; omega

/-- One step's addend at an entry of the accumulator: the partial product of the adjacency tile of point n with
    the rows of x it meets. -/
def stepAdd (c : Dev nD) (n : ℕ) (i : S2048x128.Idx) : EReal :=
  ∑ j : Fin 2048, at2 (adjA m c) (2048 * (n / 8) + (i 0).val) (2048 * (n % 8) + j.val)
    * at2 (xA m c) (2048 * (n % 8) + j.val) (i 1).val

/-- The accumulating store at point t, at an entry: what the accumulator held plus the step's addend. -/
theorem step_apply (c : Dev nD) (t : Fin cfg0.N) (acc : Vec Ideal S2048x128 .f32) (i : S2048x128.Idx) :
    k0_pay2 (F := Ideal) (xrows (grid0.coords t) (iblk m c 1 t)) acc (iblk m c 0 t) i = acc i + stepAdd m c t.val i := by
  obtain ⟨p, q, rfl⟩ : ∃ (p : Fin 2048) (q : Fin 128), i = ix2 p q := ⟨i 0, i 1, eq_ix2 i⟩
  refine (pay2_apply (xrows (grid0.coords t) (iblk m c 1 t)) acc (iblk m c 0 t) p q).trans ?_
  unfold stepAdd
  refine congrArg (acc (ix2 p q) + ·) ?_
  exact Finset.sum_congr rfl fun j _ => by rw [adj_blk, x_rows]

end Cert.KernelValue

end
-- ==== Proof.Accum.lean ====
/-
  The accumulator carried along a row tile's contraction.

  Row tile I is worked at the eight consecutive points 8·I, …, 8·I + 7. The first resets the accumulator to zero and
  adds its partial product; each later one adds its own onto what the point before left. So after point t the
  accumulator holds the sum of the addends of the points 8·(t/8), …, t, and after the eighth point of the tile it
  holds, at (p, q), the sum over the eight tiles s and the 2048 positions j inside a tile of
  adj (2048·I + p, 2048·s + j) · x (2048·s + j, q): the whole aggregation of row 2048·I + p against column q.
-/
import proofs.«115985_j19439021981955_2_alg».proof.Proof.Blocks

set_option maxRecDepth 16384

noncomputable section

open scoped BigOperators
open Idealize.ShloMosaic Idealize.ShloMosaic.TcCoe Idealize.SL.Sem Idealize.ShloMosaic.ValueIdx

namespace Cert.KernelValue

open Cert.KernelIdeal Cert.KernelIdeal.Gen Cert.KernelIdeal.Value Cert.Spec

variable (m : (ℓ : Loc nD τ sig) → Buf (Elt Ideal) ℓ)

/-- After point t the accumulator holds the addends of the row tile's points so far, from the reset at its first. -/
theorem acc_after (c : Dev nD) (t : Fin cfg0.N) (i : S2048x128.Idx) :
    (outsAt0 m c t.val t.isLt).2 i
      = 0 + ∑ s ∈ Finset.range (t.val % 8 + 1), stepAdd m c (8 * (t.val / 8) + s) i := by
  have hN := point_lt t
  rw [soutsAt0_0_eq m c t]
  refine Pipeline.accAt_add_apply (fun n h => scAt0_0 m c n h (VS0_0.read (Elt Ideal) VS0_0.junk)) (scAt0_0 m c)
    (fun _ => 0) (stepAdd m c) (8 * (t.val / 8)) 7 ?ha ?hg (t.val % 8) (by omega) _ i
  case ha =>
    intro h i
    have h0 : (8 * (t.val / 8)) % 8 = 0 := by omega
    have h1 : ¬ (8 * (t.val / 8)) % 8 = 7 := by omega
    show scAt0_0 m c (8 * (t.val / 8)) h _ i = 0 + stepAdd m c (8 * (t.val / 8)) i
    unfold scAt0_0
    rw [dif_pos h0, dif_neg h1, soutA_eq]
    refine (step_apply m c ⟨8 * (t.val / 8), h⟩ _ i).trans ?_
    rw [pay1_apply]
  case hg =>
    intro n h acc i hb he
    have h0 : ¬ n % 8 = 0 := by omega
    unfold scAt0_0
    rw [dif_neg h0]
    by_cases h1 : n % 8 = 7
    · rw [dif_pos h1, soutC_eq]; exact step_apply m c ⟨n, h⟩ acc i
    · rw [dif_neg h1, soutB_eq]; exact step_apply m c ⟨n, h⟩ acc i

/-- After the last step of row tile t / 8 the accumulator holds the aggregation of its rows. -/
theorem acc_last (c : Dev nD) (t : Fin cfg0.N) (h1 : t.val % 8 = 7) (p : Fin 2048) (q : Fin 128) :
    (outsAt0 m c t.val t.isLt).2 (ix2 p q)
      = agg (adjA m c) (xA m c) ⟨2048 * (t.val / 8) + p.val, by have := point_lt t; have := p.isLt; omega⟩ q := by
  rw [acc_after, h1, zero_add, ← agg_tiles]
  show ∑ s ∈ Finset.range 8, _ = _
  refine Finset.sum_congr rfl fun s hs => ?_
  have hs' : s < 8 := Finset.mem_range.mp hs
  have e1 : (8 * (t.val / 8) + s) / 8 = t.val / 8 := by omega
  have e2 : (8 * (t.val / 8) + s) % 8 = s := by omega
  unfold stepAdd
  rw [e1, e2]

end Cert.KernelValue

end
-- ==== Proof.Final.lean ====
/-
  From blocks to the array: the kernel's result is the specification.

  Output block I is written back once, at the last step 8·I + 7 of its row tile. What is written there is the epilogue
  of the finished accumulator (the aggregation of rows 2048·I + p), the x₀ block (the same rows of x₀) and the weight:
  entry (p, q) of the block is the specification's output at (2048·I + p, q). The eight write-backs' blocks are the
  eight row tiles, so together they cover the array, which therefore ends holding the specification's output.
-/
import proofs.«115985_j19439021981955_2_alg».proof.Proof.Accum

set_option maxRecDepth 16384

noncomputable section

open scoped BigOperators
open Idealize.ShloMosaic Idealize.ShloMosaic.TcCoe Idealize.SL.Sem Idealize.ShloMosaic.ValueIdx

namespace Cert.KernelValue

open Cert.KernelIdeal Cert.KernelIdeal.Gen Cert.KernelIdeal.Value Cert.Spec

variable (m : (ℓ : Loc nD τ sig) → Buf (Elt Ideal) ℓ) (ρ : Dev nD → PrngReg)

/-- The specification's output of the four argument arrays as the region finds them. -/
abbrev result (c : Dev nD) : SNC.Idx → EReal := out (adjA m c) (xA m c) (x0A m c) (wA m c)

/-- The epilogue at the last step of row tile t / 8, at entry (p, q): the specification at row 2048·(t/8) + p. -/
theorem out_entry (c : Dev nD) (t : Fin cfg0.N) (h1 : t.val % 8 = 7) (p : Fin 2048) (q : Fin 128) :
    k0_pay3 (F := Ideal) (outsAt0 m c t.val t.isLt).2 (iblk m c 2 t) (iblk m c 3 t) (ix2 p q)
      = result m c (ix2 ⟨2048 * (t.val / 8) + p.val, by have := point_lt t; have := p.isLt; omega⟩ q) := by
  have hr : 2048 * (t.val / 8) + p.val < 16384 := by have := point_lt t; have := p.isLt; omega
  have hc : ∀ k : Fin 128, ca * (outsAt0 m c t.val t.isLt).2 (ix2 p k) + cα * (iblk m c 2 t : Vec Ideal S2048x128 .f32) (ix2 p k)
      = comb (adjA m c) (xA m c) (x0A m c) ⟨2048 * (t.val / 8) + p.val, hr⟩ k := fun k => by
    unfold comb
    rw [acc_last m c t h1 p k, x0_blk, at2_of_lt _ _ _ hr k.isLt]
  refine (pay3_apply (outsAt0 m c t.val t.isLt).2 (iblk m c 2 t) (iblk m c 3 t) p q).trans ?_
  rw [result, out_apply, hc q]
  refine congrArg (cb * comb (adjA m c) (xA m c) (x0A m c) ⟨2048 * (t.val / 8) + p.val, hr⟩ q + cβ * ·) ?_
  exact Finset.sum_congr rfl fun k _ => by rw [hc k, w_blk]

/-- What a flushing point writes back is its block of the specification's output. -/
theorem flushed_eq (c : Dev nD) (t : Fin cfg0.N) (hf : (cfg0.win 4).flush t = true) :
    (dats m 0 c).flushed 4 t = ((cfg0.win 4).blk t).view.read (Elt Ideal) (result m c) := by
  have h1 : t.val % 8 = 7 := (flush0_4 t).mp hf
  have h0 : ¬ t.val % 8 = 0 := by omega
  have hN := point_lt t
  have hacc : (outsAt0 m c t.val t.isLt).2
      = k0_pay2 (F := Ideal) (xrows (grid0.coords t) (iblk m c 1 t))
          (outsAt0 m c (t.val - 1) (Nat.lt_of_le_of_lt (Nat.sub_le _ _) t.isLt)).2 (iblk m c 0 t) := by
    rw [outsAt0_C m c t h0 h1]; dsimp only; rw [soutC_eq]
  rw [flushed4_C m c t h0 h1, outC_eq, ← hacc]
  obtain ⟨-, -, -, -, -, -, -, -, e8, e9, -⟩ := idx_facts t
  funext y
  show k0_pay3 (F := Ideal) (outsAt0 m c t.val t.isLt).2 (iblk m c 2 t) (iblk m c 3 t) y
    = result m c (((cfg0.win 4).blk t).view.emb y)
  have hy : (y : S2048x128.Idx) = ix2 (y 0) (y 1) := eq_ix2 y
  have hp : ((y : S2048x128.Idx) 0).val < 2048 := (y 0).isLt
  have hemb : ((cfg0.win 4).blk t).view.emb y
      = ix2 ⟨2048 * (t.val / 8) + ((y : S2048x128.Idx) 0).val, by omega⟩ ((y : S2048x128.Idx) 1) := by
    funext a
    apply Fin.ext
    match a with
    | ⟨0, _⟩ => show win0_4.index t 0 * 2048 + 1 * ((y : S2048x128.Idx) 0).val = 2048 * (t.val / 8) + ((y : S2048x128.Idx) 0).val; rw [e8]; omega
    | ⟨1, _⟩ => show win0_4.index t 1 * 128 + 1 * ((y : S2048x128.Idx) 1).val = ((y : S2048x128.Idx) 1).val; rw [e9]; omega
  rw [hemb]
  exact (congrArg (k0_pay3 (F := Ideal) (outsAt0 m c t.val t.isLt).2 (iblk m c 2 t) (iblk m c 3 t)) hy).trans
    (out_entry m c t h1 (y 0) (y 1))

/-- An index of the array is in point t's output block iff each coordinate is in the block's range on its axis. -/
theorem mem_blk (t : Fin cfg0.N) (i : S16384x128.Idx) :
    i ∈ ((cfg0.win 4).blk t).view.set
      ↔ ∀ a : Fin 2, win0_4.index t a * S2048x128.size a ≤ (i a).val ∧ (i a).val < win0_4.index t a * S2048x128.size a + S2048x128.size a := by
  show i ∈ ((View.whole main_v0).slice (win0_4.rect t)).set ↔ _
  rw [View.set_slice_whole, Rect.mem_set_unit]
  exact Iff.rfl

/-- Row r of the array is in the block written back at the last step of row tile r / 2048. -/
theorem cover (i : S16384x128.Idx) :
    ∃ t : Fin cfg0.N, (cfg0.win 4).flush t = true ∧ i ∈ ((cfg0.win 4).blk t).view.set := by
  have hi0 : (i 0).val < 16384 := (i 0).isLt
  have hi1 : (i 1).val < 128 := (i 1).isLt
  have hN : cfg0.N = 64 := N_0
  have hb : 8 * ((i 0).val / 2048) + 7 < cfg0.N := by omega
  have htv : (⟨8 * ((i 0).val / 2048) + 7, hb⟩ : Fin cfg0.N).val = 8 * ((i 0).val / 2048) + 7 := rfl
  refine ⟨⟨8 * ((i 0).val / 2048) + 7, hb⟩, (flush0_4 _).mpr (by rw [htv]; omega), ?_⟩
  rw [mem_blk]
  obtain ⟨-, -, -, -, -, -, -, -, e8, e9, -⟩ := idx_facts ⟨8 * ((i 0).val / 2048) + 7, hb⟩
  rw [htv] at e8
  intro a
  match a with
  | ⟨0, _⟩ =>
    show win0_4.index ⟨8 * ((i 0).val / 2048) + 7, hb⟩ 0 * 2048 ≤ (i 0).val
      ∧ (i 0).val < win0_4.index ⟨8 * ((i 0).val / 2048) + 7, hb⟩ 0 * 2048 + 2048
    rw [e8]; omega
  | ⟨1, _⟩ =>
    show win0_4.index ⟨8 * ((i 0).val / 2048) + 7, hb⟩ 1 * 128 ≤ (i 1).val
      ∧ (i 1).val < win0_4.index ⟨8 * ((i 0).val / 2048) + 7, hb⟩ 1 * 128 + 128
    rw [e9]; omega

/-- The output array after the run is the specification's output. -/
theorem final (c : Dev nD) : (dats m 0 c).arrAt 4 cfg0.N = result m c :=
  (dats m 0 c).arrAt_eq_of_cover 4 (result m c) (flushed_eq m c) cover

/-- The kernel's run: every execution ends with the result array at the specification's output of the argument
    arrays, and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelValue

end
-- ==== Proof.lean ====
/-
  One graph-convolution layer with an initial-residual and an identity-mapping term, tiled, against the same layer
  written with whole-array operations: equal over the extended reals.

  Both programs compute, from adj : [16384, 16384], x and x₀ : [16384, 128] and w : [128, 128],

    comb = a · (adj · x) + α · x₀          out = b · comb + β · (comb · w)

  with the same four float constants a, α, b, β (the same binary words in both, never evaluated). The reference forms
  adj · x in one contraction over the 16384 neighbours. The tiled program works on 8 row tiles of 2048 rows; for each
  it takes the neighbours in 8 tiles of 2048, adding each tile's partial product into an accumulator that it zeroes at
  the first, and after the eighth it applies the rest of the formula to the accumulator, the matching rows of x₀ and w,
  and writes the row tile of the result once. The accumulated sum of the eight partial products is the one contraction
  by regrouping a finite sum, which needs only that addition is commutative and associative: true on the extended
  reals with their infinities, so the finiteness of the inputs is never used. Everything after the aggregation is the
  same sequence of operations in both programs.

  The modules: Spec (the layer as one function of the four arrays, and the regrouping law), RefIsSpec (the reference's
  operations read at an index give that function), Pieces and Payloads (what each control case of the tiled body
  leaves, and its arithmetic at an entry), Blocks (the blocks the body sees at a grid point, at coordinates), Accum (the
  accumulator along a row tile's contraction), Final (the written-back blocks are the function's, and cover the array).
  The tiled program's idealization rewrote nothing, so that it is a sanctioned idealization holds trivially.
-/
import proofs.«115985_j19439021981955_2_alg».proof.Defs
import proofs.«115985_j19439021981955_2_alg».proof.Proof.Gen.Kernel
import proofs.«115985_j19439021981955_2_alg».proof.Proof.Gen.Kernel.Skeleton
import proofs.«115985_j19439021981955_2_alg».proof.Proof.Gen.Kernel.Launch
import proofs.«115985_j19439021981955_2_alg».proof.Proof.Gen.Kernel.Points
import proofs.«115985_j19439021981955_2_alg».proof.Proof.Gen.Kernel.Frame
import proofs.«115985_j19439021981955_2_alg».proof.Proof.Gen.KernelIdeal
import proofs.«115985_j19439021981955_2_alg».proof.Proof.Gen.KernelIdeal.Skeleton
import proofs.«115985_j19439021981955_2_alg».proof.Proof.Gen.KernelIdeal.Launch
import proofs.«115985_j19439021981955_2_alg».proof.Proof.Gen.KernelIdeal.Points
import proofs.«115985_j19439021981955_2_alg».proof.Proof.Gen.KernelIdeal.Frame
import proofs.«115985_j19439021981955_2_alg».proof.Proof.Gen.ReferenceIdeal
import proofs.«115985_j19439021981955_2_alg».proof.Proof.Gen.KernelIdeal.Value
import proofs.«115985_j19439021981955_2_alg».proof.Proof.Gen.ReferenceIdeal.Run
import proofs.«115985_j19439021981955_2_alg».proof.Proof.Gen.ReferenceIdeal.Read
import proofs.«115985_j19439021981955_2_alg».proof.Proof.Gen.Pre_finite_inputs
import proofs.«115985_j19439021981955_2_alg».proof.Proof.RefIsSpec
import proofs.«115985_j19439021981955_2_alg».proof.Proof.Final
import Idealize.ShloMosaic.Adequacy
import Idealize.ShloMosaic.Init

noncomputable section

namespace Cert.Proof

open Idealize.ShloMosaic Idealize.SL.Sem

/-- The tiled program as printed runs, and leaves its arguments unchanged. -/
theorem frame_kernel : Cert.frame_Kernel := fun m ρ _ => Cert.Kernel.Gen.frame m ρ

/-- So does the tiled program read over the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the tiled program. -/
theorem preserves : Cert.preserves_Kernel_KernelIdeal := trivial

/-- Over the extended reals, from memories that agree on the four arguments, the tiled program's result array ends at
    the layer's output of its arguments, and the reference's at the same function of its own: equal. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.RefValue.ref_is_out,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
